-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KSetup.lean ====
/-
  What the two control cases of the graph-convolution kernel's body share: the buffers' contents when the one
  kernel region is entered (the program has no host operation before or after it), each input window's block
  at a grid point, the branch condition "this is the first grid point" in closed form, and the region
  invariant with the scratch (the resident support matrix) named as a memref.
-/
import proofs.«177735_g19662360281445_cont_8to1_1187_13_alg».proof.Proof.Gen.Kernel.Launch
import proofs.«177735_g19662360281445_cont_8to1_1187_13_alg».proof.Proof.Gen.Kernel.Skeleton
import proofs.«177735_g19662360281445_cont_8to1_1187_13_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents -/

/-- Core `c`'s buffers when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region alone. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [] [] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinate: "this is grid point 0". -/
abbrev cond0_0 (i : grid0.Coords) : Prop := (Scalar.cmpi .ne (Scalar.extui (Scalar.cmpi .eq (BitVec.ofNat 32 (i 0).val) 0#32)) 0#32) = 1#1
/-- It holds at the first of the 25 points only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The staging memrefs and the scratch -/

/-- One staging buffer of the output window, through which its contents are stated. -/
abbrev VO0_4 : View sig .tc .vmem S400x128 .f32 := (Memref.whole cc0_stg4_0 : Memref sig .tc .vmem S400x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
/-- The scratch operand: the support matrix, resident across grid points. -/
abbrev scM0_0 : Memref sig .tc .vmem S10000x128 .bf16 := Memref.whole cc0_scratch0
abbrev VS0_0 : View sig .tc .vmem S10000x128 .bf16 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/-
  The kernel body at the first grid point, where the conditional is taken: the support matrix is computed from
  the node features and the weights and stored into the scratch, then both halves of the output block are
  computed from the two adjacency row blocks and the scratch just written. The stores found by the run are its
  witness: one piece for the scratch, two for the output block.
-/
import proofs.«177735_g19662360281445_cont_8to1_1187_13_alg».proof.Proof.KSetup
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the condition holds, on whole memrefs: the four inputs at their contents, the output
    buffer and the scratch at anything. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) :
    Σ' (L4 : List (View.Piece (Elt F) S400x128 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.KRunB.lean ====
/-
  The kernel body at every later grid point, where the conditional is not taken: the scratch holds the support
  matrix the first point left and is only read; both halves of the output block are computed from the two
  adjacency row blocks and the scratch. The run's witness is the two pieces stored into the output block.
-/
import proofs.«177735_g19662360281445_cont_8to1_1187_13_alg».proof.Proof.KRunA
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the condition fails, on whole memrefs: the four inputs at their contents, the scratch at
    what the point before left (handed back untouched), the output buffer at anything. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Hand

end
-- ==== Proof.KFrame.lean ====
/-
  The frame of the graph-convolution kernel: what its output block and its scratch hold after the body at each of
  the 25 grid points, the proof data of the one pipelined region, and the body obligation.

  At the first point the body stores the support matrix into the scratch and then the two halves of the output
  block; at every later point the scratch is as the point before left it, and the body stores the two halves of
  the output block computed from it. The adjacency matrix is read by two input windows (row blocks 2t and 2t+1):
  its buffer's full share is dealt to them as the two halves of the full share.
-/
import proofs.«177735_g19662360281445_cont_8to1_1187_13_alg».proof.Proof.KRunB
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output block tile it. -/
theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S400x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S200x128.size (by sl_kernel_rfl) y

/-- What the first point leaves in the output block's staging buffer. -/
def out0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S400x128 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The first point's store into the scratch covers it. -/
theorem scover0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

/-- What the first point leaves in the scratch: the support matrix. -/
def sout0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S10000x128 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- A later point's two stores into the output block tile it. -/
theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) (y : S400x128.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S200x128.size (by sl_kernel_rfl) y

/-- What a later point leaves in the output block's staging buffer. -/
def out0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) : Vec F S400x128 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## What the output block and the scratch hold after each point -/

theorem not_cond_succ (n : ℕ) (hn : n + 1 < cfg0.N) : ¬cond0_0 (grid0.coords ⟨n + 1, hn⟩) := fun h => by
  have hN : n + 1 < 25 := lt_of_lt_of_eq hn (show cfg0.N = 25 from N_0)
  have := (hcond0_0 ⟨n + 1, hn⟩).mp h
  dsimp only at this; omega

/-- After the body at position `n`: the output block's staging buffer, and the scratch. The scratch is written at
    the first point and carried unchanged from then on. -/
def outsAt0 (c : Dev nD) : (n : ℕ) → n < cfg0.N → Vec F S400x128 .f32 × Vec F S10000x128 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (not_cond_succ n hn) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
      (outsAt0 c n (Nat.lt_of_succ_lt hn)).2)

/-- `outsAt0` at the first point. -/
theorem outsAt0_A (c : Dev nD) (t : Fin cfg0.N) (h0 : t.val % 25 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (by exfalso; have hN : n + 1 < 25 := lt_of_lt_of_eq hn (show cfg0.N = 25 from N_0); dsimp only at h0; omega)

/-- `outsAt0` at a later point: the output block from the scratch the point before left, the scratch unchanged. -/
theorem outsAt0_B (c : Dev nD) (t : Fin cfg0.N) (h0 : ¬t.val % 25 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region invariant before position `n`: before the first point the scratch holds anything; afterwards it
    holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`. The two windows on the adjacency matrix hold it at the two
    halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' staging buffers hold their blocks; the first point is handed the scratch at
    anything and leaves the support matrix in it, a later point is handed it at what the point before left and
    hands it back untouched; either way the two stores cover the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 25 = 0
  · have hz : t.val = 0 := by omega
    rw [outsAt0_A m c t h0]
    unfold out0_A_4 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · have hz : t.val ≠ 0 := fun h => h0 (by rw [h])
    rw [outsAt0_B m c t h0]
    unfold out0_B_4; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 25 := N_0; omega)

end Cert.Kernel.Hand

end
-- ==== Proof.LibSharedLaunch.lean ====
/-
  A launch theorem for a pipelined kernel region whose INPUT windows may share an array, with host
  operations before and after the region.

  When two input windows read one array, the windows' arrays are not pairwise distinct, and the
  full share of the array's buffer cannot be handed to each window. Instead the buffer's full share
  is split among the windows that read it (each window's proof data names its part), and joined
  again when the region ends. This module takes those two steps as hypotheses of the certificate:

  * at ENTRY, the distinct buffers behind the windows' arrays, each whole at the full share at the
    entry contents, make the proof data's arrays at their entry contents (`hsplit`);
  * at EXIT, the proof data's arrays at their final contents ARE those distinct buffers, each whole
    at the full share, at some contents `V₁` (`hexit`, both directions) — `V₁` agreeing with the
    entry contents on every buffer that is no window's array (`hrest`);
  * the host operations after the region leave every window's array as the region left it (`hkeep`).

  The conclusion is the run of @main to a state in which every unscoped buffer holds what the
  host operations after the region compute from `V₁`.
-/
import Idealize.ShloMosaic.Lib.Pipeline.FrameSuffix

noncomputable section

namespace Cert.Lib.SharedLaunch

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The run of @main — host operations, the region, host operations — for a region whose input
    windows may share arrays. -/
theorem θ_run_around_track_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ c w, StableHlo.after opss.flatten (V₁ c) (Proc.devRef .tc (arrRef (cfg).spec w)) = V₁ c (Proc.devRef .tc (arrRef (cfg).spec w)))
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfg).spec c (fun b => V₀ c (Proc.devRef .tc b)) : sProp 𝕄) ⊢ (dats p c).arrays ((dats p c).arrAt · 0))
    (hexit : ∀ c, ((dats p c).arrays ((dats p c).arrAt · (cfg).N) : sProp 𝕄) ⊣⊢ arrBufs (cfg).spec c (fun b => V₁ c (Proc.devRef .tc b)))
    (hrest : ∀ c b, b ∈ restRefs sig (cfg).spec → V₁ c (Proc.devRef .tc b) = V₀ c (Proc.devRef .tc b))
    (harrN : ∀ c w, V₁ c (Proc.devRef .tc (arrRef (cfg).spec w)) = (dats p c).arrAt w (cfg).N)
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD, ∀ b : Ref sig .tc, b.isScoped = false →
      r.2.mem ((c.tc : Thread nD τ).loc b) = StableHlo.after opss.flatten (V₁ c) (Proc.devRef .tc b)) := by
  classical
  -- the buffers that are no window's array hold the entry contents when the region ends
  have hrestEq : ∀ c, (unscopedRest (Ix := Unit) (Name := ℕ) (U := UR sig nD τ) (Lvl := ℕ) (cfg).spec c (fun b => V₀ c (Proc.devRef .tc b)) : sProp 𝕄)
      = unscopedRest (cfg).spec c (fun b => V₁ c (Proc.devRef .tc b)) := fun c => by
    unfold unscopedRest
    exact bigSep_congr fun b hb => by dsimp only; rw [hrest c b hb]
  -- all unscoped buffers at the exit contents, from the proof data's arrays and the bypassing buffers
  have hjoin : ∀ c, iprop(((dats p c).arrays ((dats p c).arrAt · (cfg).N) : sProp 𝕄)
        ∗ unscopedRest (cfg).spec c (fun b => V₀ c (Proc.devRef .tc b)))
      ⊢ (StableHlo.held (c.tc : Thread nD τ) (ucRefs τ sig) (V₁ c) : sProp 𝕄) := fun c => by
    rw [← unscopedBufs_held (Ix := Unit) (Name := ℕ) (U := UR sig nD τ) (Lvl := ℕ) c (V₁ c),
      Pipeline.unscopedBufs_split₀ cfgs p hw.arr_unscoped c, hrestEq c]
    iintro ⟨Ha, Hr⟩
    isplitl [Ha]; · iapply (hexit c).1; iexact Ha
    iexact Hr
  -- and back, after the host operations
  have hsplitN : ∀ c, (StableHlo.held (c.tc : Thread nD τ) (ucRefs τ sig) (StableHlo.after opss.flatten (V₁ c)) : sProp 𝕄)
      ⊢ iprop(((dats p c).arrays ((dats p c).arrAt · (cfg).N) : sProp 𝕄)
        ∗ unscopedRest (cfg).spec c (fun b => StableHlo.after opss.flatten (V₁ c) (Proc.devRef .tc b))) := fun c => by
    rw [← unscopedBufs_held (Ix := Unit) (Name := ℕ) (U := UR sig nD τ) (Lvl := ℕ) c (StableHlo.after opss.flatten (V₁ c)),
      Pipeline.unscopedBufs_split₀ cfgs p hw.arr_unscoped c]
    have e : (arrBufs (Ix := Unit) (Name := ℕ) (U := UR sig nD τ) (Lvl := ℕ) (cfg).spec c (fun b => StableHlo.after opss.flatten (V₁ c) (Proc.devRef .tc b)) : sProp 𝕄)
        = arrBufs (cfg).spec c (fun b => V₁ c (Proc.devRef .tc b)) := by
      unfold arrBufs
      exact bigSep_congr fun b hb => by
        obtain ⟨w, -, rfl⟩ := Finset.mem_image.mp hb
        dsimp only; rw [hkeep c w]
    rw [e]
    iintro ⟨Ha, Hr⟩
    isplitl [Ha]; · iapply (hexit c).2; iexact Ha
    iexact Hr
  exact θ_run_region_pf_tail (fun q => (cfgs q).toPCfg (Val := Val)) (fun q => (cfgs q).toPCfg_adm) dats () hcell p hw
      (OwnSemFacts.none (cfg).spec) (PreFacts.none _) emb₁ defs₀ 𝒱₀ m g main
      (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (V₁ c) (Proc.devRef .tc b)))
    (hX := fun c => by
      rw [show (unscopedRestP (Ix := Unit) (Name := ℕ) (U := UR sig nD τ) (Lvl := ℕ) ((cfgs p).toPCfg (Val := Val)).pre (cfg).spec c (fun b => V₀ c (Proc.devRef .tc b)) : sProp 𝕄)
          = unscopedRest (cfg).spec c (fun b => V₀ c (Proc.devRef .tc b)) from unscopedRestP_none _ _ _]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [← List.append_nil (opss.map StableHlo.seq)]
      have aux : iprop((boundary (c.tc : Thread nD τ) : sProp 𝕄) ∗ ((dats p c).arrays ((dats p c).arrAt · (cfg).N) : sProp 𝕄)
          ∗ unscopedRest (cfg).spec c (fun b => V₀ c (Proc.devRef .tc b)))
        ⊢ iprop((boundary (c.tc : Thread nD τ) : sProp 𝕄) ∗ (StableHlo.held (c.tc : Thread nD τ) (ucRefs τ sig) (V₁ c) : sProp 𝕄)) :=
        sep_mono_right (hjoin c)
      iintro ⟨Hk, Hb⟩
      ihave Hb' := aux $$ Hb
      iapply (wp_seqs_then (fun q => (cfgs q).toPCfg (Val := Val)) defs₀ 𝒱₀ c (ucRefs τ sig) [] opss hsub hfresh (V₁ c)) $$ Hb'
      iintro Hb
      rw [chain_nil, wp_pure]
      imodintro
      iapply Hk
      icases Hb with ⟨-, H⟩
      iapply (hsplitN c); iexact H)
    (QY := fun c s => ∀ b ∈ restRefs sig (cfg).spec, s.mem ((c.tc : Thread nD τ).loc b) = StableHlo.after opss.flatten (V₁ c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (V₁ c) (Proc.devRef .tc b)) s')
      isplitl [HU] <;> iassumption)
    (hQ := fun s h c b hb => by
      by_cases hi : b ∈ Finset.univ.image (arrRef (cfg).spec)
      · obtain ⟨w, -, rfl⟩ := Finset.mem_image.mp hi
        rw [hkeep c w, harrN c w]; exact (h c).1 w
      · exact (h c).2.2 b (Finset.mem_sdiff.mpr ⟨Finset.mem_filter.mpr ⟨Finset.mem_univ _, by simp [hb]⟩, hi⟩))

end Cert.Lib.SharedLaunch

end
-- ==== Proof.KLaunch.lean ====
/-
  The launch of the graph-convolution kernel's region and its frame.

  Two input windows read the adjacency matrix, so its buffer's full share is split in two halves when the region is
  entered (one half per window) and the halves are joined again when it ends; every other array is held by one
  window at the full share. The run of @main then ends with the three argument arrays as they were and the result
  array at what the 25 write-backs of the output window left in it.
-/
import proofs.«177735_g19662360281445_cont_8to1_1187_13_alg».proof.Proof.KFrame
import proofs.«177735_g19662360281445_cont_8to1_1187_13_alg».proof.Proof.LibSharedLaunch
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The proof data's arrays, each at its buffer (a window's array is a whole buffer). -/
theorem arrays_loc (c : Dev nD) (Fw : (w : Fin cfg0.W) → Buf (Elt F) ((cfg0.win w).arr.view.loc (c.tc : Thread nD τ))) :
    ((dats m 0 c).arrays Fw : sProp 𝕄) = bigSep Finset.univ fun w : Fin cfg0.W =>
      ((((c.tc : Thread nD τ).loc (Pipeline.arrRef spec0 w)) ↦{(dats m 0 c).share w} Fw w : sProp 𝕄)) := by
  unfold Dat.arrays
  exact bigSep_congr fun w _ => by rw [(arr_whole0 w).set_eq_univ]

theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The proof data's arrays as a chain: windows 2 and 3 are both on the adjacency matrix, at the two halves of the
    full share. -/
theorem arrays_chain (c : Dev nD) (Fw : (w : Fin cfg0.W) → Buf (Elt F) ((cfg0.win w).arr.view.loc (c.tc : Thread nD τ))) :
    ((dats m 0 c).arrays Fw : sProp 𝕄) = iprop(
      (((c.tc : Thread nD τ).loc (Pipeline.arrRef spec0 0)) ↦{fullShare} Fw 0) ∗ (((c.tc : Thread nD τ).loc (Pipeline.arrRef spec0 1)) ↦{fullShare} Fw 1)
      ∗ (((c.tc : Thread nD τ).loc (Pipeline.arrRef spec0 2)) ↦{fullShare.left} Fw 2) ∗ (((c.tc : Thread nD τ).loc (Pipeline.arrRef spec0 3)) ↦{fullShare.right} Fw 3)
      ∗ (((c.tc : Thread nD τ).loc (Pipeline.arrRef spec0 4)) ↦{fullShare} Fw 4)) := by
  rw [arrays_loc, bigSep_W0, share0, share1, share2, share3, share4]

/-- The four distinct buffers behind the five windows' arrays, as a chain. -/
theorem arrBufs_chain (c : Dev nD) (X : (b : Ref sig .tc) → Buf (Elt F) ((c.tc : Thread nD τ).loc b)) :
    (Pipeline.arrBufs spec0 c X : sProp 𝕄) = iprop(
      (((c.tc : Thread nD τ).loc (Pipeline.arrRef spec0 0)) ↦{fullShare} X (Pipeline.arrRef spec0 0)) ∗ (((c.tc : Thread nD τ).loc (Pipeline.arrRef spec0 1)) ↦{fullShare} X (Pipeline.arrRef spec0 1))
      ∗ (((c.tc : Thread nD τ).loc (Pipeline.arrRef spec0 2)) ↦{fullShare} X (Pipeline.arrRef spec0 2)) ∗ (((c.tc : Thread nD τ).loc (Pipeline.arrRef spec0 4)) ↦{fullShare} X (Pipeline.arrRef spec0 4))) := by
  unfold Pipeline.arrBufs
  rw [bigSep_eq_bigSepL_of_eq [Pipeline.arrRef spec0 0, Pipeline.arrRef spec0 1, Pipeline.arrRef spec0 2, Pipeline.arrRef spec0 4] (by decide) (by decide)]
  rfl

/-- The proof data's arrays at contents that agree on the adjacency matrix are the four buffers at the full share:
    the two halves of the adjacency matrix's share join, and split. -/
theorem arrays_iff (c : Dev nD) (Fw : (w : Fin cfg0.W) → Buf (Elt F) ((cfg0.win w).arr.view.loc (c.tc : Thread nD τ)))
    (X : (b : Ref sig .tc) → Buf (Elt F) ((c.tc : Thread nD τ).loc b))
    (h0 : Fw 0 = X (Pipeline.arrRef spec0 0)) (h1 : Fw 1 = X (Pipeline.arrRef spec0 1)) (h2 : Fw 2 = X (Pipeline.arrRef spec0 2))
    (h3 : Fw 3 = X (Pipeline.arrRef spec0 2)) (h4 : Fw 4 = X (Pipeline.arrRef spec0 4)) :
    ((dats m 0 c).arrays Fw : sProp 𝕄) ⊣⊢ Pipeline.arrBufs spec0 c X := by
  rw [arrays_chain, arrBufs_chain, h0, h1, h2, h3, h4]
  constructor
  · iintro ⟨H0, H2, H1l, H1r, H4⟩
    isplitl [H0]; · iexact H0
    isplitl [H2]; · iexact H2
    isplitl [H1l H1r]
    · iapply (pointsTo_share (PosShare.mem_left_op_right fullShare)).2
      isplitl [H1l]; · iexact H1l
      iexact H1r
    iexact H4
  · iintro ⟨H0, H2, H1, H4⟩
    ihave H1' := (pointsTo_share (PosShare.mem_left_op_right fullShare)).1 $$ H1
    icases H1' with ⟨H1l, H1r⟩
    isplitl [H0]; · iexact H0
    isplitl [H2]; · iexact H2
    isplitl [H1l]; · iexact H1l
    isplitl [H1r]; · iexact H1r
    iexact H4

/-! ## The buffers' contents when the region ends -/

/-- The result array at what the write-backs left in it, every other buffer as at the region's entry. -/
def V1 (c : Dev nD) : Valuation τ sig (Elt F) :=
  Function.update (V0 m c) (Proc.devRef .tc main_v0) ((dats m 0 c).arrAt 4 cfg0.N)

theorem V1_out (c : Dev nD) : V1 m c (Proc.devRef .tc main_v0) = (dats m 0 c).arrAt 4 cfg0.N := by
  unfold V1; exact Function.update_self _ _ _

theorem V1_other (c : Dev nD) (b : Ref sig .tc) (hb : b ≠ main_v0) : V1 m c (Proc.devRef .tc b) = V0 m c (Proc.devRef .tc b) := by
  unfold V1; exact Function.update_of_ne (StableHlo.devRef_ne_of_ne hb) _ _

theorem arrAt_entry (c : Dev nD) (w : Fin cfg0.W) : (dats m 0 c).arrAt w 0 = V m c (Pipeline.arrRef spec0 w) := rfl

theorem hsplit (c : Dev nD) : (Pipeline.arrBufs spec0 c (fun b => V0 m c (Proc.devRef .tc b)) : sProp 𝕄) ⊢ (dats m 0 c).arrays ((dats m 0 c).arrAt · 0) :=
  (arrays_iff m c _ _ rfl rfl rfl rfl rfl).2

theorem harrN (c : Dev nD) (w : Fin cfg0.W) : V1 m c (Proc.devRef .tc (Pipeline.arrRef spec0 w)) = (dats m 0 c).arrAt w cfg0.N := by
  match w with
  | ⟨0, _⟩ => exact (V1_other m c main_arg0 (by decide)).trans ((dats m 0 c).arrAt_in 0 rfl _).symm
  | ⟨1, _⟩ => exact (V1_other m c main_arg2 (by decide)).trans ((dats m 0 c).arrAt_in 1 rfl _).symm
  | ⟨2, _⟩ => exact (V1_other m c main_arg1 (by decide)).trans ((dats m 0 c).arrAt_in 2 rfl _).symm
  | ⟨3, _⟩ => exact (V1_other m c main_arg1 (by decide)).trans ((dats m 0 c).arrAt_in 3 rfl _).symm
  | ⟨4, _⟩ => exact V1_out m c

theorem hexit (c : Dev nD) : ((dats m 0 c).arrays ((dats m 0 c).arrAt · cfg0.N) : sProp 𝕄) ⊣⊢ Pipeline.arrBufs spec0 c (fun b => V1 m c (Proc.devRef .tc b)) :=
  arrays_iff m c _ _ (harrN m c 0).symm (harrN m c 1).symm (harrN m c 2).symm (harrN m c 3).symm (harrN m c 4).symm

theorem hrest (c : Dev nD) (b : Ref sig .tc) (hb : b ∈ Pipeline.restRefs sig spec0) : V1 m c (Proc.devRef .tc b) = V0 m c (Proc.devRef .tc b) :=
  V1_other m c b fun h => (Finset.mem_sdiff.mp hb).2 (Finset.mem_image.mpr ⟨4, Finset.mem_univ _, (show Pipeline.arrRef spec0 4 = b from h.symm)⟩)

/-! ## The run and the frame -/

set_option backward.isDefEq.respectTransparency.types false in
/-- Every weakly fair execution of @main terminates without a fault, every unscoped buffer ending at `V1`. -/
theorem run_main : θ_run defs (onTc (τ := τ) (main (F := F))) ⟨m, fun _ => 0, ρ⟩ (fun r => ∀ c : Dev nD, ∀ b : Ref sig .tc, b.isScoped = false →
      r.2.mem ((c.tc : Thread nD τ).loc b) = StableHlo.after ([] : List (List (HloOp τ sig (Elt F)))).flatten (V1 m c) (Proc.devRef .tc b)) :=
  Cert.Lib.SharedLaunch.θ_run_around_track_shared cfgs (dats m) (0 : Fin 1) defs₀ Variants.none
    (hcell := cellOf_inj) (hw := winFacts₀0) (hne := block_pos0) (harr := arr_whole0) (hstage := stage_whole0) (m := m) (g := ρ) (main := main)
    (hbody := fun c => (body_obligation m c).loose) (howed := fun _ _ => rfl) (V₀ := V0 m) (V₁ := V1 m) (opss := [])
    (hsub := fun _ h => absurd h (List.not_mem_nil)) (hfresh := fun _ h => absurd h (List.not_mem_nil)) (hkeep := fun _ _ => rfl)
    (hmain := hmain m Variants.none) (hsplit := hsplit m) (hexit := hexit m) (hrest := hrest m) (harrN := harrN m) (hin := hin m) (hout := hout m)

/-- The run with the four arrays named: the result array at what the write-backs left, the arguments unchanged. -/
theorem run_arrays : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c main_v0 rfl).trans (V1_out m c),
      (h c main_arg0 rfl).trans (V1_other m c main_arg0 (by decide)),
      (h c main_arg1 rfl).trans (V1_other m c main_arg1 (by decide)),
      (h c main_arg2 rfl).trans (V1_other m c main_arg2 (by decide))⟩) (run_main m ρ)

/-- The frame: @main runs to the end, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_arrays m ρ)

end Cert.Kernel.Hand

end
-- ==== Proof.KISetup.lean ====
/-
  What the two control cases of the graph-convolution kernel's body share: the buffers' contents when the one
  kernel region is entered (the program has no host operation before or after it), each input window's block
  at a grid point, the branch condition "this is the first grid point" in closed form, and the region
  invariant with the scratch (the resident support matrix) named as a memref.
-/
import proofs.«177735_g19662360281445_cont_8to1_1187_13_alg».proof.Proof.Gen.KernelIdeal.Launch
import proofs.«177735_g19662360281445_cont_8to1_1187_13_alg».proof.Proof.Gen.KernelIdeal.Skeleton
import proofs.«177735_g19662360281445_cont_8to1_1187_13_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry contents -/

/-- Core `c`'s buffers when the region is entered: the launch contents (no host operation precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- @main is the region alone. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [] [] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional, from the grid coordinate: "this is grid point 0". -/
abbrev cond0_0 (i : grid0.Coords) : Prop := (Scalar.cmpi .ne (Scalar.extui (Scalar.cmpi .eq (BitVec.ofNat 32 (i 0).val) 0#32)) 0#32) = 1#1
/-- It holds at the first of the 25 points only. -/
theorem hcond0_0 : ∀ t : Fin cfg0.N, cond0_0 (grid0.coords t) ↔ t.val % 25 = 0 :=
  (by decide +kernel : ∀ t : Fin grid0.N, cond0_0 (grid0.coords t) ↔ t.val % 25 = 0)

/-- No window is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel

/-! ## The staging memrefs and the scratch -/

/-- One staging buffer of the output window, through which its contents are stated. -/
abbrev VO0_4 : View sig .tc .vmem S400x128 .f32 := (Memref.whole cc0_stg4_0 : Memref sig .tc .vmem S400x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S200x10000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x128 .f32 := win0_4.stage (cfg0.slots t 4)
abbrev hs0_4 (t : Fin cfg0.N) : (ms0_4 t).IsWhole := hstage0_4 ((cfg0.slots t 4).cast nbuf0_4)
/-- The scratch operand: the support matrix, resident across grid points. -/
abbrev scM0_0 : Memref sig .tc .vmem S10000x128 .bf16 := Memref.whole cc0_scratch0
abbrev VS0_0 : View sig .tc .vmem S10000x128 .bf16 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/-
  The kernel body at the first grid point, where the conditional is taken: the support matrix is computed from
  the node features and the weights and stored into the scratch, then both halves of the output block are
  computed from the two adjacency row blocks and the scratch just written. The stores found by the run are its
  witness: one piece for the scratch, two for the output block.
-/
import proofs.«177735_g19662360281445_cont_8to1_1187_13_alg».proof.Proof.KISetup
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the condition holds, on whole memrefs: the four inputs at their contents, the output
    buffer and the scratch at anything. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) :
    Σ' (L4 : List (View.Piece (Elt F) S400x128 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KIRunB.lean ====
/-
  The kernel body at every later grid point, where the conditional is not taken: the scratch holds the support
  matrix the first point left and is only read; both halves of the output block are computed from the two
  adjacency row blocks and the scratch. The run's witness is the two pieces stored into the output block.
-/
import proofs.«177735_g19662360281445_cont_8to1_1187_13_alg».proof.Proof.KIRunA
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run when the condition fails, on whole memrefs: the four inputs at their contents, the scratch at
    what the point before left (handed back untouched), the output buffer at anything. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) :
    { L4 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Hand

end
-- ==== Proof.KIFrame.lean ====
/-
  The frame of the graph-convolution kernel: what its output block and its scratch hold after the body at each of
  the 25 grid points, the proof data of the one pipelined region, and the body obligation.

  At the first point the body stores the support matrix into the scratch and then the two halves of the output
  block; at every later point the scratch is as the point before left it, and the body stores the two halves of
  the output block computed from it. The adjacency matrix is read by two input windows (row blocks 2t and 2t+1):
  its buffer's full share is dealt to them as the two halves of the full share.
-/
import proofs.«177735_g19662360281445_cont_8to1_1187_13_alg».proof.Proof.KIRunB
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output block tile it. -/
theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S400x128.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S200x128.size (by sl_kernel_rfl) y

/-- What the first point leaves in the output block's staging buffer. -/
def out0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S400x128 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The first point's store into the scratch covers it. -/
theorem scover0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

/-- What the first point leaves in the scratch: the support matrix. -/
def sout0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S200x10000 .f32) (x3 : Vec F S200x10000 .f32) : Vec F S10000x128 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- A later point's two stores into the output block tile it. -/
theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) (y : S400x128.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S200x128.size (by sl_kernel_rfl) y

/-- What a later point leaves in the output block's staging buffer. -/
def out0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S200x10000 .f32) (x3 : Vec F S200x10000 .f32) (xs0 : Vec F S10000x128 .bf16) : Vec F S400x128 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## What the output block and the scratch hold after each point -/

theorem not_cond_succ (n : ℕ) (hn : n + 1 < cfg0.N) : ¬cond0_0 (grid0.coords ⟨n + 1, hn⟩) := fun h => by
  have hN : n + 1 < 25 := lt_of_lt_of_eq hn (show cfg0.N = 25 from N_0)
  have := (hcond0_0 ⟨n + 1, hn⟩).mp h
  dsimp only at this; omega

/-- After the body at position `n`: the output block's staging buffer, and the scratch. The scratch is written at
    the first point and carried unchanged from then on. -/
def outsAt0 (c : Dev nD) : (n : ℕ) → n < cfg0.N → Vec F S400x128 .f32 × Vec F S10000x128 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (not_cond_succ n hn) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
      (outsAt0 c n (Nat.lt_of_succ_lt hn)).2)

/-- `outsAt0` at the first point. -/
theorem outsAt0_A (c : Dev nD) (t : Fin cfg0.N) (h0 : t.val % 25 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
      sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (by exfalso; have hN : n + 1 < 25 := lt_of_lt_of_eq hn (show cfg0.N = 25 from N_0); dsimp only at h0; omega)

/-- `outsAt0` at a later point: the output block from the scratch the point before left, the scratch unchanged. -/
theorem outsAt0_B (c : Dev nD) (t : Fin cfg0.N) (h0 : ¬t.val % 25 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact rfl

/-- The region invariant before position `n`: before the first point the scratch holds anything; afterwards it
    holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`. The two windows on the adjacency matrix hold it at the two
    halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' staging buffers hold their blocks; the first point is handed the scratch at
    anything and leaves the support matrix in it, a later point is handed it at what the point before left and
    hands it back untouched; either way the two stores cover the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 25 = 0
  · have hz : t.val = 0 := by omega
    rw [outsAt0_A m c t h0]
    unfold out0_A_4 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · have hz : t.val ≠ 0 := fun h => h0 (by rw [h])
    rw [outsAt0_B m c t h0]
    unfold out0_B_4; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 25 := N_0; omega)

end Cert.KernelIdeal.Hand

end
-- ==== Proof.KILaunch.lean ====
/-
  The launch of the graph-convolution kernel's region and its frame.

  Two input windows read the adjacency matrix, so its buffer's full share is split in two halves when the region is
  entered (one half per window) and the halves are joined again when it ends; every other array is held by one
  window at the full share. The run of @main then ends with the three argument arrays as they were and the result
  array at what the 25 write-backs of the output window left in it.
-/
import proofs.«177735_g19662360281445_cont_8to1_1187_13_alg».proof.Proof.KIFrame
import proofs.«177735_g19662360281445_cont_8to1_1187_13_alg».proof.Proof.LibSharedLaunch
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, one by one -/

/-- The proof data's arrays, each at its buffer (a window's array is a whole buffer). -/
theorem arrays_loc (c : Dev nD) (Fw : (w : Fin cfg0.W) → Buf (Elt F) ((cfg0.win w).arr.view.loc (c.tc : Thread nD τ))) :
    ((dats m 0 c).arrays Fw : sProp 𝕄) = bigSep Finset.univ fun w : Fin cfg0.W =>
      ((((c.tc : Thread nD τ).loc (Pipeline.arrRef spec0 w)) ↦{(dats m 0 c).share w} Fw w : sProp 𝕄)) := by
  unfold Dat.arrays
  exact bigSep_congr fun w _ => by rw [(arr_whole0 w).set_eq_univ]

theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The proof data's arrays as a chain: windows 2 and 3 are both on the adjacency matrix, at the two halves of the
    full share. -/
theorem arrays_chain (c : Dev nD) (Fw : (w : Fin cfg0.W) → Buf (Elt F) ((cfg0.win w).arr.view.loc (c.tc : Thread nD τ))) :
    ((dats m 0 c).arrays Fw : sProp 𝕄) = iprop(
      (((c.tc : Thread nD τ).loc (Pipeline.arrRef spec0 0)) ↦{fullShare} Fw 0) ∗ (((c.tc : Thread nD τ).loc (Pipeline.arrRef spec0 1)) ↦{fullShare} Fw 1)
      ∗ (((c.tc : Thread nD τ).loc (Pipeline.arrRef spec0 2)) ↦{fullShare.left} Fw 2) ∗ (((c.tc : Thread nD τ).loc (Pipeline.arrRef spec0 3)) ↦{fullShare.right} Fw 3)
      ∗ (((c.tc : Thread nD τ).loc (Pipeline.arrRef spec0 4)) ↦{fullShare} Fw 4)) := by
  rw [arrays_loc, bigSep_W0, share0, share1, share2, share3, share4]

/-- The four distinct buffers behind the five windows' arrays, as a chain. -/
theorem arrBufs_chain (c : Dev nD) (X : (b : Ref sig .tc) → Buf (Elt F) ((c.tc : Thread nD τ).loc b)) :
    (Pipeline.arrBufs spec0 c X : sProp 𝕄) = iprop(
      (((c.tc : Thread nD τ).loc (Pipeline.arrRef spec0 0)) ↦{fullShare} X (Pipeline.arrRef spec0 0)) ∗ (((c.tc : Thread nD τ).loc (Pipeline.arrRef spec0 1)) ↦{fullShare} X (Pipeline.arrRef spec0 1))
      ∗ (((c.tc : Thread nD τ).loc (Pipeline.arrRef spec0 2)) ↦{fullShare} X (Pipeline.arrRef spec0 2)) ∗ (((c.tc : Thread nD τ).loc (Pipeline.arrRef spec0 4)) ↦{fullShare} X (Pipeline.arrRef spec0 4))) := by
  unfold Pipeline.arrBufs
  rw [bigSep_eq_bigSepL_of_eq [Pipeline.arrRef spec0 0, Pipeline.arrRef spec0 1, Pipeline.arrRef spec0 2, Pipeline.arrRef spec0 4] (by decide) (by decide)]
  rfl

/-- The proof data's arrays at contents that agree on the adjacency matrix are the four buffers at the full share:
    the two halves of the adjacency matrix's share join, and split. -/
theorem arrays_iff (c : Dev nD) (Fw : (w : Fin cfg0.W) → Buf (Elt F) ((cfg0.win w).arr.view.loc (c.tc : Thread nD τ)))
    (X : (b : Ref sig .tc) → Buf (Elt F) ((c.tc : Thread nD τ).loc b))
    (h0 : Fw 0 = X (Pipeline.arrRef spec0 0)) (h1 : Fw 1 = X (Pipeline.arrRef spec0 1)) (h2 : Fw 2 = X (Pipeline.arrRef spec0 2))
    (h3 : Fw 3 = X (Pipeline.arrRef spec0 2)) (h4 : Fw 4 = X (Pipeline.arrRef spec0 4)) :
    ((dats m 0 c).arrays Fw : sProp 𝕄) ⊣⊢ Pipeline.arrBufs spec0 c X := by
  rw [arrays_chain, arrBufs_chain, h0, h1, h2, h3, h4]
  constructor
  · iintro ⟨H0, H2, H1l, H1r, H4⟩
    isplitl [H0]; · iexact H0
    isplitl [H2]; · iexact H2
    isplitl [H1l H1r]
    · iapply (pointsTo_share (PosShare.mem_left_op_right fullShare)).2
      isplitl [H1l]; · iexact H1l
      iexact H1r
    iexact H4
  · iintro ⟨H0, H2, H1, H4⟩
    ihave H1' := (pointsTo_share (PosShare.mem_left_op_right fullShare)).1 $$ H1
    icases H1' with ⟨H1l, H1r⟩
    isplitl [H0]; · iexact H0
    isplitl [H2]; · iexact H2
    isplitl [H1l]; · iexact H1l
    isplitl [H1r]; · iexact H1r
    iexact H4

/-! ## The buffers' contents when the region ends -/

/-- The result array at what the write-backs left in it, every other buffer as at the region's entry. -/
def V1 (c : Dev nD) : Valuation τ sig (Elt F) :=
  Function.update (V0 m c) (Proc.devRef .tc main_v0) ((dats m 0 c).arrAt 4 cfg0.N)

theorem V1_out (c : Dev nD) : V1 m c (Proc.devRef .tc main_v0) = (dats m 0 c).arrAt 4 cfg0.N := by
  unfold V1; exact Function.update_self _ _ _

theorem V1_other (c : Dev nD) (b : Ref sig .tc) (hb : b ≠ main_v0) : V1 m c (Proc.devRef .tc b) = V0 m c (Proc.devRef .tc b) := by
  unfold V1; exact Function.update_of_ne (StableHlo.devRef_ne_of_ne hb) _ _

theorem arrAt_entry (c : Dev nD) (w : Fin cfg0.W) : (dats m 0 c).arrAt w 0 = V m c (Pipeline.arrRef spec0 w) := rfl

theorem hsplit (c : Dev nD) : (Pipeline.arrBufs spec0 c (fun b => V0 m c (Proc.devRef .tc b)) : sProp 𝕄) ⊢ (dats m 0 c).arrays ((dats m 0 c).arrAt · 0) :=
  (arrays_iff m c _ _ rfl rfl rfl rfl rfl).2

theorem harrN (c : Dev nD) (w : Fin cfg0.W) : V1 m c (Proc.devRef .tc (Pipeline.arrRef spec0 w)) = (dats m 0 c).arrAt w cfg0.N := by
  match w with
  | ⟨0, _⟩ => exact (V1_other m c main_arg0 (by decide)).trans ((dats m 0 c).arrAt_in 0 rfl _).symm
  | ⟨1, _⟩ => exact (V1_other m c main_arg2 (by decide)).trans ((dats m 0 c).arrAt_in 1 rfl _).symm
  | ⟨2, _⟩ => exact (V1_other m c main_arg1 (by decide)).trans ((dats m 0 c).arrAt_in 2 rfl _).symm
  | ⟨3, _⟩ => exact (V1_other m c main_arg1 (by decide)).trans ((dats m 0 c).arrAt_in 3 rfl _).symm
  | ⟨4, _⟩ => exact V1_out m c

theorem hexit (c : Dev nD) : ((dats m 0 c).arrays ((dats m 0 c).arrAt · cfg0.N) : sProp 𝕄) ⊣⊢ Pipeline.arrBufs spec0 c (fun b => V1 m c (Proc.devRef .tc b)) :=
  arrays_iff m c _ _ (harrN m c 0).symm (harrN m c 1).symm (harrN m c 2).symm (harrN m c 3).symm (harrN m c 4).symm

theorem hrest (c : Dev nD) (b : Ref sig .tc) (hb : b ∈ Pipeline.restRefs sig spec0) : V1 m c (Proc.devRef .tc b) = V0 m c (Proc.devRef .tc b) :=
  V1_other m c b fun h => (Finset.mem_sdiff.mp hb).2 (Finset.mem_image.mpr ⟨4, Finset.mem_univ _, (show Pipeline.arrRef spec0 4 = b from h.symm)⟩)

/-! ## The run and the frame -/

set_option backward.isDefEq.respectTransparency.types false in
/-- Every weakly fair execution of @main terminates without a fault, every unscoped buffer ending at `V1`. -/
theorem run_main : θ_run defs (onTc (τ := τ) (main (F := F))) ⟨m, fun _ => 0, ρ⟩ (fun r => ∀ c : Dev nD, ∀ b : Ref sig .tc, b.isScoped = false →
      r.2.mem ((c.tc : Thread nD τ).loc b) = StableHlo.after ([] : List (List (HloOp τ sig (Elt F)))).flatten (V1 m c) (Proc.devRef .tc b)) :=
  Cert.Lib.SharedLaunch.θ_run_around_track_shared cfgs (dats m) (0 : Fin 1) defs₀ Variants.none
    (hcell := cellOf_inj) (hw := winFacts₀0) (hne := block_pos0) (harr := arr_whole0) (hstage := stage_whole0) (m := m) (g := ρ) (main := main)
    (hbody := fun c => (body_obligation m c).loose) (howed := fun _ _ => rfl) (V₀ := V0 m) (V₁ := V1 m) (opss := [])
    (hsub := fun _ h => absurd h (List.not_mem_nil)) (hfresh := fun _ h => absurd h (List.not_mem_nil)) (hkeep := fun _ _ => rfl)
    (hmain := hmain m Variants.none) (hsplit := hsplit m) (hexit := hexit m) (hrest := hrest m) (harrN := harrN m) (hin := hin m) (hout := hout m)

/-- The run with the four arrays named: the result array at what the write-backs left, the arguments unchanged. -/
theorem run_arrays : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c main_v0 rfl).trans (V1_out m c),
      (h c main_arg0 rfl).trans (V1_other m c main_arg0 (by decide)),
      (h c main_arg1 rfl).trans (V1_other m c main_arg1 (by decide)),
      (h c main_arg2 rfl).trans (V1_other m c main_arg2 (by decide))⟩) (run_main m ρ)

/-- The frame: @main runs to the end, nothing faults, and the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_arrays m ρ)

end Cert.KernelIdeal.Hand

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.GraphSpec.lean ====
/-
  The graph-convolution layer as one function of its three argument arrays, at the ideal values:
  relu (adj · (x · W)), index by index. Both programs are compared with it.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- Node features and the layer's output: 10000 nodes, 128 channels. -/
abbrev SN : Shape := ⟨2, ![10000, 128]⟩
/-- The dense adjacency matrix. -/
abbrev SA : Shape := ⟨2, ![10000, 10000]⟩
/-- The weights. -/
abbrev SW : Shape := ⟨2, ![128, 128]⟩

/-- The support matrix x · W: entry (n, c) is the sum over the input channels j of x[n, j] · W[j, c]. -/
def support (x : SN.Idx → EReal) (W : SW.Idx → EReal) : SN.Idx → EReal :=
  fun i => ∑ j : Fin 128, x (ix2 (i 0) j) * W (ix2 j (i 1))

/-- The layer: entry (n, c) is max (∑ over nodes k of adj[n, k] · support[k, c], 0). -/
def conv (x : SN.Idx → EReal) (adj : SA.Idx → EReal) (W : SW.Idx → EReal) : SN.Idx → EReal :=
  fun i => max (∑ k : Fin 10000, adj (ix2 (i 0) k) * support x W (ix2 k (i 1))) (Ideal.ofBits .f32 0x00000000#32)

end Cert.GraphConv

end
-- ==== Proof.KIPay.lean ====
/-
  The kernel body's three stored values at the ideal values, read at an entry. A change of float format is the
  identity on extended reals, and a matrix product accumulated into zero is the plain sum over the contracted
  axis; so the value stored into the scratch is the support matrix x · W, and each half of the output block is
  max (rows of adj · scratch, 0).
-/
import proofs.«177735_g19662360281445_cont_8to1_1187_13_alg».proof.Proof.Gen.KernelIdeal.Skeleton
import proofs.«177735_g19662360281445_cont_8to1_1187_13_alg».proof.Proof.LibMatmulSum
import proofs.«177735_g19662360281445_cont_8to1_1187_13_alg».proof.Proof.GraphSpec
import Idealize.ShloMosaic.Lib.Pipeline.Value
import Idealize.ShloMosaic.Lib.ValueIdx

noncomputable section

namespace Cert.KernelIdeal.Val

open Idealize.ShloMosaic Idealize.ShloMosaic.ValueIdx Cert.KernelIdeal Cert.KernelIdeal.Gen Cert.GraphConv

/-! ## The dimension records: which coordinate of each operand index comes from where -/

theorem d1_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d1_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem d1_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem d1_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem d2_l0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem d2_l1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem d2_r0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem d2_r1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The stored values -/

/-- The value stored into the scratch is the support matrix. -/
theorem pay1_eq (x : Vec Ideal S10000x128 .f32) (W : Vec Ideal S128x128 .f32) : k0_pay1 x W = support x W := by
  funext i
  unfold k0_pay1
  refine (congrFun (shapeCast_self _ _) i).trans ?_
  exact matmul_zero_sum dot_S10000x128_S128x128_S10000x128_1_0_0_1_n_n none rfl rfl d1_l0 d1_l1 d1_r0 d1_r1 _ _ i

/-- The upper half of the output block at an entry: 200 rows of the adjacency matrix against the scratch. -/
theorem pay2_apply (a : Vec Ideal S200x10000 .f32) (s : Vec Ideal S10000x128 .bf16) (y : S200x128.Idx) :
    k0_pay2 a s y = max (∑ k : Fin 10000, a (ix2 (y 0) k) * s (ix2 k (y 1))) (Ideal.ofBits .f32 0x00000000#32) := by
  unfold k0_pay2
  refine (maximumf_apply _ _ y).trans ?_
  exact congrArg₂ max (matmul_zero_sum dot_S200x10000_S10000x128_S200x128_1_0_0_1_n_n none rfl rfl d2_l0 d2_l1 d2_r0 d2_r1 _ _ y) rfl

/-- The lower half, likewise. -/
theorem pay3_apply (a : Vec Ideal S200x10000 .f32) (s : Vec Ideal S10000x128 .bf16) (y : S200x128.Idx) :
    k0_pay3 a s y = max (∑ k : Fin 10000, a (ix2 (y 0) k) * s (ix2 k (y 1))) (Ideal.ofBits .f32 0x00000000#32) := by
  unfold k0_pay3
  refine (maximumf_apply _ _ y).trans ?_
  exact congrArg₂ max (matmul_zero_sum dot_S200x10000_S10000x128_S200x128_1_0_0_1_n_n none rfl rfl d2_l0 d2_l1 d2_r0 d2_r1 _ _ y) rfl

end Cert.KernelIdeal.Val

end
-- ==== Proof.KIValue.lean ====
/-
  The value of the graph-convolution kernel at the ideal values: its result array ends holding
  relu (adj · (x · W)) of its argument arrays.

  The scratch holds the support matrix x · W from the first grid point on (it is stored there once and only read
  afterwards). At grid point t the output block's rows 0–199 are rows 400t … 400t+199 of adj against the scratch and
  its rows 200–399 are rows 400t+200 … 400t+399: the two adjacency windows read row blocks 2t and 2t+1 of 200 rows
  each. The 25 output blocks of 400 rows tile the result array.
-/
import proofs.«177735_g19662360281445_cont_8to1_1187_13_alg».proof.Proof.KILaunch
import proofs.«177735_g19662360281445_cont_8to1_1187_13_alg».proof.Proof.KIPay
import Idealize.ShloMosaic.Lib.Pipeline.Value
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.GraphConv Cert.KernelIdeal.Val

theorem hz : (![0, 0] : Fin 2 → Nat) = fun _ => 0 := funext fun a => by fin_cases a <;> rfl

/-- The output block assembled from its two halves: rows 0–199 from the first adjacency row block, rows 200–399
    from the second, both against the same support matrix `s`. -/
def blockOf (a2 a3 : Vec F S200x10000 .f32) (s : Vec F S10000x128 .bf16) : Vec F S400x128 .f32 :=
  View.canon [⟨Rect.unit (s := S400x128) ![200, 0] S200x128.size inb_S400x128_S200x128_200_0, k0_pay3 a3 s⟩,
    ⟨Rect.unit (s := S400x128) ![0, 0] S200x128.size inb_S400x128_S200x128_0_0, k0_pay2 a2 s⟩]

/-- The first point leaves the support matrix in the scratch. -/
theorem sout_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S200x10000 .f32) (x3 : Vec F S200x10000 .f32) :
    sout0_A_0 (F := F) c i arg1 harg1 arg2 harg2 arg3 harg3 arg4 harg4 arg5 harg5 arg6 harg6 hc0 x0 x1 x2 x3 = k0_pay1 x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, View.ld_unit_zero (S := S10000x128) hz, View.ld_unit_zero (S := S128x128) hz]

/-- The first point's output block: both halves against the support matrix it has just stored. -/
theorem out_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S200x10000 .f32) (x3 : Vec F S200x10000 .f32) :
    out0_A_4 (F := F) c i arg1 harg1 arg2 harg2 arg3 harg3 arg4 harg4 arg5 harg5 arg6 harg6 hc0 x0 x1 x2 x3 = blockOf x2 x3 (k0_pay1 x0 x1) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.readCov_unit_zero (S := S10000x128) _ hz]
  simp only [View.readAt_eq_ld, harg1.read_unread, harg2.read_unread, harg3.read_unread, harg4.read_unread, View.ld_unit_zero (S := S10000x128) hz, View.ld_unit_zero (S := S128x128) hz, View.ld_unit_zero (S := S200x10000) hz]
  rfl

/-- A later point's output block: both halves against the scratch as the point before left it. -/
theorem out_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S200x10000 .f32) (x3 : Vec F S200x10000 .f32) (xs0 : Vec F S10000x128 .bf16) :
    out0_B_4 (F := F) c i arg1 harg1 arg2 harg2 arg3 harg3 arg4 harg4 arg5 harg5 arg6 harg6 hc0 x0 x1 x2 x3 xs0 = blockOf x2 x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  simp only [View.readAt_eq_ld, harg3.read_unread, harg4.read_unread, harg6.read_unread, View.ld_unit_zero (S := S10000x128) hz, View.ld_unit_zero (S := S200x10000) hz]
  rfl

/-! ## The windows' blocks as parts of the argument arrays -/

/-- The printed index maps over the grid: the features and the weights are one block each; the adjacency windows
    read row blocks 2t and 2t+1; the output window writes row block t. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 2 * t.val ∧ win0_2.index t (1 : Fin 2) = 0
    ∧ win0_3.index t (0 : Fin 2) = 2 * t.val + 1 ∧ win0_3.index t (1 : Fin 2) = 0
    ∧ win0_4.index t (0 : Fin 2) = t.val ∧ win0_4.index t (1 : Fin 2) = 0 :=
  (by decide +kernel : ∀ t : Fin grid0.N, _)

/-- The features window's block is the whole features array. -/
theorem iblk0_apply (c : Dev nD) (t : Fin cfg0.N) (y : S10000x128.Idx) :
    (iblk m c 0 t : Vec F S10000x128 .f32) y = m ((c : Thread nD τ).loc main_arg0) y := by
  obtain ⟨e00, e01, -⟩ := idx_facts t
  unfold iblk
  rw [View.read_apply]
  show m ((c : Thread nD τ).loc main_arg0) _ = m ((c : Thread nD τ).loc main_arg0) _
  refine congrArg (m ((c : Thread nD τ).loc main_arg0)) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weights window's block is the whole weights array. -/
theorem iblk1_apply (c : Dev nD) (t : Fin cfg0.N) (y : S128x128.Idx) :
    (iblk m c 1 t : Vec F S128x128 .f32) y = m ((c : Thread nD τ).loc main_arg2) y := by
  obtain ⟨-, -, e10, e11, -⟩ := idx_facts t
  unfold iblk
  rw [View.read_apply]
  show m ((c : Thread nD τ).loc main_arg2) _ = m ((c : Thread nD τ).loc main_arg2) _
  refine congrArg (m ((c : Thread nD τ).loc main_arg2)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The first adjacency window's block at point t: rows 400t … 400t+199 of the adjacency matrix. -/
theorem iblk2_apply (c : Dev nD) (t : Fin cfg0.N) (y : S200x10000.Idx) (I : S10000x10000.Idx)
    (h0 : (I 0).val = 2 * t.val * 200 + (y 0).val) (h1 : (I 1).val = (y 1).val) :
    (iblk m c 2 t : Vec F S200x10000 .f32) y = m ((c : Thread nD τ).loc main_arg1) I := by
  obtain ⟨-, -, -, -, e20, e21, -⟩ := idx_facts t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_2.index t (0 : Fin 2) * 200 + 1 * (y 0).val = (I 0).val; omega
  | ⟨1, _⟩ => show win0_2.index t (1 : Fin 2) * 10000 + 1 * (y 1).val = (I 1).val; omega

/-- The second adjacency window's block at point t: rows 400t+200 … 400t+399. -/
theorem iblk3_apply (c : Dev nD) (t : Fin cfg0.N) (y : S200x10000.Idx) (I : S10000x10000.Idx)
    (h0 : (I 0).val = (2 * t.val + 1) * 200 + (y 0).val) (h1 : (I 1).val = (y 1).val) :
    (iblk m c 3 t : Vec F S200x10000 .f32) y = m ((c : Thread nD τ).loc main_arg1) I := by
  obtain ⟨-, -, -, -, -, -, e30, e31, -⟩ := idx_facts t
  unfold iblk
  rw [View.read_apply]
  show m ((c : Thread nD τ).loc main_arg1) _ = m ((c : Thread nD τ).loc main_arg1) _
  refine congrArg (m ((c : Thread nD τ).loc main_arg1)) (funext fun a => Fin.ext ?_)
  match a with
  | ⟨0, _⟩ => show win0_3.index t (0 : Fin 2) * 200 + 1 * (y 0).val = (I 0).val; omega
  | ⟨1, _⟩ => show win0_3.index t (1 : Fin 2) * 10000 + 1 * (y 1).val = (I 1).val; omega

/-! ## The scratch and the output block, point by point -/

/-- After every point the scratch holds what the first point stored: the stored value of the features and weights
    blocks. By induction on the point. -/
theorem scratch_eq (c : Dev nD) (t0 : Fin cfg0.N) (h0 : t0.val = 0) (n : ℕ) (hn : n < cfg0.N) :
    (outsAt0 m c n hn).2 = k0_pay1 (iblk m c 0 t0) (iblk m c 1 t0) := by
  induction n with
  | zero =>
    obtain rfl : t0 = ⟨0, hn⟩ := Fin.ext h0
    have e := outsAt0_A m c ⟨0, hn⟩ rfl
    dsimp only at e
    rw [e]
    dsimp only
    rw [sout_A]
  | succ n ih =>
    have hN : cfg0.N = 25 := N_0
    have hB : ¬(⟨n + 1, hn⟩ : Fin cfg0.N).val % 25 = 0 := by dsimp only; omega
    have e := outsAt0_B m c ⟨n + 1, hn⟩ hB
    dsimp only at e
    rw [e]
    exact ih (Nat.lt_of_succ_lt hn)

/-- After point t the output block's staging buffer holds the two halves computed from the point's adjacency blocks
    and that same scratch. -/
theorem outs_eq (c : Dev nD) (t0 : Fin cfg0.N) (h0 : t0.val = 0) (n : ℕ) (hn : n < cfg0.N) : (outsAt0 m c n hn).1
      = blockOf (iblk m c 2 ⟨n, hn⟩) (iblk m c 3 ⟨n, hn⟩) (k0_pay1 (iblk m c 0 t0) (iblk m c 1 t0)) := by
  cases n with
  | zero =>
    obtain rfl : t0 = ⟨0, hn⟩ := Fin.ext h0
    have e := outsAt0_A m c ⟨0, hn⟩ rfl
    dsimp only at e
    rw [e]
    dsimp only
    rw [out_A]
  | succ n =>
    have hN : cfg0.N = 25 := N_0
    have hB : ¬(⟨n + 1, hn⟩ : Fin cfg0.N).val % 25 = 0 := by dsimp only; omega
    have e := outsAt0_B m c ⟨n + 1, hn⟩ hB
    dsimp only at e
    rw [e]
    dsimp only
    rw [out_B, scratch_eq m c t0 h0]

/-! ## The two halves of the assembled block, read at an entry -/

/-- An entry of the upper 200 rows is not under the lower half's store. -/
theorem upper_not_mem (y : S400x128.Idx) (x' : S200x128.Idx) (h0 : (y 0).val = (x' 0).val) :
    y ∉ (Rect.unit (s := S400x128) ![200, 0] S200x128.size inb_S400x128_S200x128_200_0).set := by
  have hx : (x' 0).val < 200 := (x' 0).isLt
  rw [Rect.mem_set_unit]
  intro h
  have h200 : 200 ≤ (y 0).val := (h 0).1
  omega

theorem upper_emb (y : S400x128.Idx) (x' : S200x128.Idx) (h0 : (y 0).val = (x' 0).val) (h1 : (y 1).val = (x' 1).val) :
    y = (Rect.unit (s := S400x128) ![0, 0] S200x128.size inb_S400x128_S200x128_0_0).emb x' :=
  funext fun a => Fin.ext (by
    match a with
    | ⟨0, _⟩ => show (y 0).val = 0 + 1 * (x' 0).val; omega
    | ⟨1, _⟩ => show (y 1).val = 0 + 1 * (x' 1).val; omega)

theorem lower_emb (y : S400x128.Idx) (x' : S200x128.Idx) (h0 : (y 0).val = 200 + (x' 0).val) (h1 : (y 1).val = (x' 1).val) :
    y = (Rect.unit (s := S400x128) ![200, 0] S200x128.size inb_S400x128_S200x128_200_0).emb x' :=
  funext fun a => Fin.ext (by
    match a with
    | ⟨0, _⟩ => show (y 0).val = 200 + 1 * (x' 0).val; omega
    | ⟨1, _⟩ => show (y 1).val = 0 + 1 * (x' 1).val; omega)

/-- The upper half alone, as the contents one store leaves. -/
def upperOnly (a2 : Vec F S200x10000 .f32) (s : Vec F S10000x128 .bf16) : Vec F S400x128 .f32 :=
  View.canon (Val := Elt F) [(⟨Rect.unit (s := S400x128) ![0, 0] S200x128.size inb_S400x128_S200x128_0_0, k0_pay2 a2 s⟩ : View.Piece (Elt F) S400x128 .f32)]

theorem blockOf_off_lower (a2 a3 : Vec F S200x10000 .f32) (s : Vec F S10000x128 .bf16) (y : S400x128.Idx)
    (hn : y ∉ (Rect.unit (s := S400x128) ![200, 0] S200x128.size inb_S400x128_S200x128_200_0).set) :
    blockOf a2 a3 s y = upperOnly a2 s y :=
  View.canon_cons_of_not_mem _ _ hn

theorem upperOnly_emb (a2 : Vec F S200x10000 .f32) (s : Vec F S10000x128 .bf16) (x' : S200x128.Idx) :
    upperOnly a2 s ((Rect.unit (s := S400x128) ![0, 0] S200x128.size inb_S400x128_S200x128_0_0).emb x') = k0_pay2 a2 s x' :=
  View.canon_cons_emb (Val := Elt F) (e := .f32) (Rect.unit (s := S400x128) ![0, 0] S200x128.size inb_S400x128_S200x128_0_0) (k0_pay2 a2 s) [] x'

theorem blockOf_emb_lower (a2 a3 : Vec F S200x10000 .f32) (s : Vec F S10000x128 .bf16) (x' : S200x128.Idx) :
    blockOf a2 a3 s ((Rect.unit (s := S400x128) ![200, 0] S200x128.size inb_S400x128_S200x128_200_0).emb x') = k0_pay3 a3 s x' :=
  View.canon_cons_emb (Val := Elt F) (e := .f32) (Rect.unit (s := S400x128) ![200, 0] S200x128.size inb_S400x128_S200x128_200_0) (k0_pay3 a3 s) _ x'

/-- Rows 0–199 of the block are the first store's value. -/
theorem blockOf_upper (a2 a3 : Vec F S200x10000 .f32) (s : Vec F S10000x128 .bf16) (y : S400x128.Idx) (x' : S200x128.Idx)
    (h0 : (y 0).val = (x' 0).val) (h1 : (y 1).val = (x' 1).val) : blockOf a2 a3 s y = k0_pay2 a2 s x' :=
  (blockOf_off_lower a2 a3 s y (upper_not_mem y x' h0)).trans
    ((congrArg (upperOnly a2 s) (upper_emb y x' h0 h1)).trans (upperOnly_emb a2 s x'))

/-- Rows 200–399 are the second store's value. -/
theorem blockOf_lower (a2 a3 : Vec F S200x10000 .f32) (s : Vec F S10000x128 .bf16) (y : S400x128.Idx) (x' : S200x128.Idx)
    (h0 : (y 0).val = 200 + (x' 0).val) (h1 : (y 1).val = (x' 1).val) : blockOf a2 a3 s y = k0_pay3 a3 s x' :=
  (congrArg (blockOf a2 a3 s) (lower_emb y x' h0 h1)).trans (blockOf_emb_lower a2 a3 s x')

end Cert.KernelIdeal.Hand

/-! ## At the ideal values -/

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.GraphConv

variable (m : (ℓ : Loc nD τ sig) → Buf (Elt Ideal) ℓ) (ρ : Dev nD → PrngReg)

/-- One entry of the assembled block is the layer function at the corresponding entry of the result array: for a
    block whose upper half reads rows 400t … of adj and whose lower half reads rows 400t+200 …, against the support
    matrix, entry (r, c) of the block is entry (400t + r, c) of relu (adj · support). -/
theorem block_entry (a2 a3 : Vec Ideal S200x10000 .f32) (x : SN.Idx → EReal) (adj : SA.Idx → EReal) (W : SW.Idx → EReal) (tv : ℕ)
    (h2 : ∀ (r : Fin 200) (k : Fin 10000) (I : SA.Idx), (I 0).val = 2 * tv * 200 + r.val → (I 1).val = k.val → a2 (ix2 r k) = adj I)
    (h3 : ∀ (r : Fin 200) (k : Fin 10000) (I : SA.Idx), (I 0).val = (2 * tv + 1) * 200 + r.val → (I 1).val = k.val → a3 (ix2 r k) = adj I)
    (y : S400x128.Idx) (E : SN.Idx) (hE0 : (E 0).val = tv * 400 + (y 0).val) (hE1 : (E 1).val = (y 1).val) :
    blockOf (F := Ideal) a2 a3 (support x W) y = conv x adj W E := by
  have hy0 : (y 0).val < 400 := idx2_lt0 y
  have hy1 : (y 1).val < 128 := (y 1).isLt
  have hc : (⟨(y 1).val, hy1⟩ : Fin 128) = E 1 := Fin.ext hE1.symm
  unfold conv
  by_cases hlt : (y 0).val < 200
  · rw [blockOf_upper a2 a3 (support x W) y (ix2 (⟨(y 0).val, hlt⟩ : Fin 200) (⟨(y 1).val, hy1⟩ : Fin 128)) rfl rfl, pay2_apply]
    refine congrArg₂ max (Finset.sum_congr rfl fun k _ => ?_) rfl
    refine congrArg₂ (· * ·) (h2 _ k _ ?_ rfl) (congrArg (fun z => support x W (ix2 k z)) hc)
    show (E 0).val = 2 * tv * 200 + (y 0).val
    omega
  · rw [blockOf_lower a2 a3 (support x W) y (ix2 (⟨(y 0).val - 200, by omega⟩ : Fin 200) (⟨(y 1).val, hy1⟩ : Fin 128)) (by show (y 0).val = 200 + ((y 0).val - 200); omega) rfl, pay3_apply]
    refine congrArg₂ max (Finset.sum_congr rfl fun k _ => ?_) rfl
    refine congrArg₂ (· * ·) (h3 _ k _ ?_ rfl) (congrArg (fun z => support x W (ix2 k z)) hc)
    show (E 0).val = (2 * tv + 1) * 200 + ((y 0).val - 200)
    omega

/-- The result array's final contents: the layer function of the three argument arrays. -/
abbrev result (c : Dev nD) : Buf (Elt Ideal) ((c : Thread nD τ).loc main_v0) :=
  conv (m ((c : Thread nD τ).loc main_arg0)) (m ((c : Thread nD τ).loc main_arg1)) (m ((c : Thread nD τ).loc main_arg2))

/-- The scratch's contents are the support matrix of the argument arrays. -/
theorem support_eq (c : Dev nD) (t0 : Fin cfg0.N) :
    k0_pay1 (iblk m c 0 t0) (iblk m c 1 t0) = support (m ((c : Thread nD τ).loc main_arg0)) (m ((c : Thread nD τ).loc main_arg2)) := by
  have e0 : (iblk m c 0 t0 : Vec Ideal S10000x128 .f32) = m ((c : Thread nD τ).loc main_arg0) := funext (iblk0_apply m c t0)
  have e1 : (iblk m c 1 t0 : Vec Ideal S128x128 .f32) = m ((c : Thread nD τ).loc main_arg2) := funext (iblk1_apply m c t0)
  rw [e0, e1]
  exact pay1_eq _ _

/-- What point t writes back is block t of the layer function. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  have hN0 : 0 < cfg0.N := Nat.lt_of_le_of_lt (Nat.zero_le _) t.isLt
  rw [after0_4, outs_eq m c ⟨0, hN0⟩ rfl t.val t.isLt, support_eq]
  obtain ⟨-, -, -, -, -, -, -, -, e40, e41⟩ := idx_facts t
  funext y
  rw [View.read_apply]
  refine block_entry (iblk m c 2 t) (iblk m c 3 t) _ _ _ t.val
    (fun r k I h0 h1 => iblk2_apply m c t (ix2 r k) I h0 h1) (fun r k I h0 h1 => iblk3_apply m c t (ix2 r k) I h0 h1) y _ ?_ ?_
  · show win0_4.index t (0 : Fin 2) * 400 + 1 * (y 0).val = t.val * 400 + (y 0).val
    omega
  · show win0_4.index t (1 : Fin 2) * 128 + 1 * (y 1).val = (y 1).val
    omega

/-- An index of the result array is in point t's block iff its row is among the block's 400 rows. -/
theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The 25 blocks tile the result array, so it ends holding the layer function. -/
theorem final (c : Dev nD) : (dats m 0 c).arrAt 4 cfg0.N = result m c :=
  (dats m 0 c).arrAt_eq_of_cover 4 (result m c) (fun t _ => flushed_eq m c t) fun i => by
    have hN : cfg0.N = 25 := N_0
    have hi0 : (i 0).val < 10000 := (i 0).isLt
    have hi1 : (i 1).val < 128 := (i 1).isLt
    have ht : (i 0).val / 400 < cfg0.N := by rw [hN]; omega
    obtain ⟨-, -, -, -, -, -, -, -, e40, e41⟩ := idx_facts ⟨(i 0).val / 400, ht⟩
    refine ⟨⟨(i 0).val / 400, ht⟩, flush0_4 _, ?_⟩
    rw [mem_blk4]
    intro a
    match a with
    | ⟨0, _⟩ =>
      show win0_4.index ⟨(i 0).val / 400, ht⟩ (0 : Fin 2) * 400 ≤ (i 0).val ∧ (i 0).val < win0_4.index ⟨(i 0).val / 400, ht⟩ (0 : Fin 2) * 400 + 400
      rw [e40]; dsimp only; omega
    | ⟨1, _⟩ =>
      show win0_4.index ⟨(i 0).val / 400, ht⟩ (1 : Fin 2) * 128 ≤ (i 1).val ∧ (i 1).val < win0_4.index ⟨(i 0).val / 400, ht⟩ (1 : Fin 2) * 128 + 128
      rw [e41]; omega

/-- The kernel's run at the ideal values: the result array at the layer function, the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (run_arrays m ρ)

end Cert.KernelIdeal.Val

end
-- ==== Proof.RefValue.lean ====
/-
  The reference program's result, at the ideal values, is the layer function of its arguments: the two host
  matrix products read at an entry are the two sums, and relu is the maximum with zero.
-/
import proofs.«177735_g19662360281445_cont_8to1_1187_13_alg».proof.Proof.Gen.ReferenceIdeal.Read
import proofs.«177735_g19662360281445_cont_8to1_1187_13_alg».proof.Proof.GraphSpec

noncomputable section

namespace Cert.ReferenceIdeal.RefValue

open Idealize.ShloMosaic Idealize.ShloMosaic.ValueIdx Cert.ReferenceIdeal Cert.ReferenceIdeal.Read Cert.GraphConv

theorem lidx0_eq (i : S10000x128.Idx) (k : Fin 128) : lidx_main_v0 i k = ix2 (i 0) k :=
  funext fun a => by match a with | ⟨0, _⟩ => rfl | ⟨1, _⟩ => rfl
theorem ridx0_eq (i : S10000x128.Idx) (k : Fin 128) : ridx_main_v0 i k = ix2 k (i 1) :=
  funext fun a => by match a with | ⟨0, _⟩ => rfl | ⟨1, _⟩ => rfl
theorem lidx1_eq (i : S10000x128.Idx) (k : Fin 10000) : lidx_main_v1 i k = ix2 (i 0) k :=
  funext fun a => by match a with | ⟨0, _⟩ => rfl | ⟨1, _⟩ => rfl
theorem ridx1_eq (i : S10000x128.Idx) (k : Fin 10000) : ridx_main_v1 i k = ix2 k (i 1) :=
  funext fun a => by match a with | ⟨0, _⟩ => rfl | ⟨1, _⟩ => rfl

/-- The reference's last stage is the layer function. -/
theorem ref_eq (x : S10000x128.Idx → EReal) (adj : S10000x10000.Idx → EReal) (W : S128x128.Idx → EReal) :
    val_main_v2 (F := Ideal) x adj W = conv x adj W := by
  funext i
  rw [val_main_v2_apply, val_main_v1_apply, val_main_call0_v0_apply, val_main_call0_cst_apply]
  unfold conv support
  refine congrArg₂ max (Finset.sum_congr rfl fun k _ => ?_) rfl
  rw [val_main_v0_apply, lidx1_eq, ridx1_eq]
  refine congrArg₂ (· * ·) rfl (Finset.sum_congr rfl fun j _ => ?_)
  exact congrArg₂ (· * ·) (congrArg x (lidx0_eq _ j)) (congrArg W (ridx0_eq _ j))

end Cert.ReferenceIdeal.RefValue

end
-- ==== Proof.lean ====
/-
  The certificate of the graph-convolution kernel relu (adj · (x · W)) against its jnp reference.

  The kernel is one pipelined region of 25 grid points. Its two adjacency windows read one array, so the frame of
  each printed kernel program (at the word level and at the ideal values) is proved from the launch theorem for
  shared input windows (Proof/KLaunch.lean, Proof/KILaunch.lean): the body runs at every point, the support matrix is
  carried in the scratch from the first point on, and the argument arrays end unchanged. The reference's frame is
  its run with the result dropped.

  At the ideal values both programs compute the same function of the argument arrays, index by index
  (Proof/GraphSpec.lean): the kernel's result array is read off its frame run block by block (Proof/KIValue.lean),
  the reference's off its run (Proof/RefValue.lean). A change of float format is the identity on extended reals
  and both matrix products are plain sums, so no algebraic law beyond reading the operations is needed and the
  precondition is not used. The ideal pass rewrote nothing, so `preserves` is trivial.
-/
import proofs.«177735_g19662360281445_cont_8to1_1187_13_alg».proof.Defs
import proofs.«177735_g19662360281445_cont_8to1_1187_13_alg».proof.Proof.Gen.Kernel
import proofs.«177735_g19662360281445_cont_8to1_1187_13_alg».proof.Proof.Gen.KernelIdeal
import proofs.«177735_g19662360281445_cont_8to1_1187_13_alg».proof.Proof.Gen.ReferenceIdeal
import proofs.«177735_g19662360281445_cont_8to1_1187_13_alg».proof.Proof.Gen.Pre_finite_inputs
import proofs.«177735_g19662360281445_cont_8to1_1187_13_alg».proof.Proof.KLaunch
import proofs.«177735_g19662360281445_cont_8to1_1187_13_alg».proof.Proof.KIValue
import proofs.«177735_g19662360281445_cont_8to1_1187_13_alg».proof.Proof.RefValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer function of arguments that agree. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
